-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : IVec S4096x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S4096x4096 : Shape := ⟨2, ![4096, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .i32⟩
  | .local _ .vmem, ⟨3, _⟩ => ⟨S1024x1024, .i32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .i32 = 32 ∨ (Rect.block (s := S4096x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What the kernel body leaves, case by case, as values.

  The body keeps a 1024×1024 accumulator in a buffer of its own across grid points. At every point it loads the
  point's block of `x`, the point's block of codes and the accumulator, and stores into the accumulator the
  accumulator plus the block product (the body's one arithmetic term, `k0_pay2`). At the first point of a run of four
  (`k = 0`) it first stores the zero block (`k0_pay1`) and the load of the accumulator reads that zero back. At the
  last point (`k = 3`) it afterwards copies the accumulator, read back from its store, into the output block.
  So: after a first point the accumulator holds `k0_pay2 x w 0`; after any later point `k0_pay2 x w acc` of what the
  point before left; and the output block written at a last point is that same value.
-/
import proofs.«180707_j52802327937389_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- The zero offsets of a whole-block load or store. -/
theorem hz : (![0, 0] : Fin 2 → Nat) = fun _ => 0 := funext fun a => by fin_cases a <;> rfl

/-- FIRST POINT of a run (`k = 0`): the accumulator is zeroed, read back, and left at the block product added to
    that zero. -/
theorem acc_first (c : Dev nD) (i : grid0.Coords) (a3 : Memref sig .tc .vmem S1024x1024 .f32) (h3 : a3.IsWhole)
    (a4 : Memref sig .tc .vmem S1024x1024 .i32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 : Vec F S1024x1024 .f32) (x1 : Vec F S1024x1024 .i32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- MIDDLE POINTS (`k = 1, 2`): the accumulator holding `acc` is left at `acc` plus the block product. -/
theorem acc_middle (c : Dev nD) (i : grid0.Coords) (a3 : Memref sig .tc .vmem S1024x1024 .f32) (h3 : a3.IsWhole)
    (a4 : Memref sig .tc .vmem S1024x1024 .i32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 : Vec F S1024x1024 .f32) (x1 : Vec F S1024x1024 .i32) (acc : Vec F S1024x1024 .f32) :
    sout0_B_0 c i a3 h3 a4 h4 a5 h5 a6 h6 hc0 hc1 x0 x1 acc = k0_pay2 x0 x1 acc := by
  unfold sout0_B_0
  rw [View.read_writes_eq_canon _ _ _ (scover0_B_0 c i a3 h3 a4 h4 a5 h5 a6 h6 hc0 hc1 x0 x1 acc)]
  unfold kernelRun0_B
  dsimp only
  rw [View.canon_unit_zero hz]
  simp only [View.readAt_eq_ld, h3.read_unread, h4.read_unread, h6.read_unread, View.ld_unit_zero (S := S1024x1024) hz]

/-- LAST POINT (`k = 3`): the accumulator holding `acc` is left at `acc` plus the block product … -/
theorem acc_last (c : Dev nD) (i : grid0.Coords) (a3 : Memref sig .tc .vmem S1024x1024 .f32) (h3 : a3.IsWhole)
    (a4 : Memref sig .tc .vmem S1024x1024 .i32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 : Vec F S1024x1024 .f32) (x1 : Vec F S1024x1024 .i32) (acc : Vec F S1024x1024 .f32) :
    sout0_C_0 c i a3 h3 a4 h4 a5 h5 a6 h6 hc0 hc1 x0 x1 acc = k0_pay2 x0 x1 acc := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero hz]
  simp only [View.readAt_eq_ld, h3.read_unread, h4.read_unread, h6.read_unread, View.ld_unit_zero (S := S1024x1024) hz]

/-- … and the output block is written with that same value, read back from the accumulator. -/
theorem out_last (c : Dev nD) (i : grid0.Coords) (a3 : Memref sig .tc .vmem S1024x1024 .f32) (h3 : a3.IsWhole)
    (a4 : Memref sig .tc .vmem S1024x1024 .i32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 : Vec F S1024x1024 .f32) (x1 : Vec F S1024x1024 .i32) (acc : Vec F S1024x1024 .f32) :
    out0_C_2 c i a3 h3 a4 h4 a5 h5 a6 h6 hc0 hc1 x0 x1 acc = k0_pay2 x0 x1 acc := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

end Cert.KernelIdeal.Pieces

end
-- ==== Proof.Carried.lean ====
/-
  What each grid point leaves in the accumulator, as the body's one arithmetic term.

  Point `n` is the first of its run of four when `n % 4 = 0`. There the accumulator is left at the accumulate step
  applied to the point's two blocks and the zero block, whatever it held before. At every other point it is left at
  the accumulate step applied to the point's two blocks and what the point before left. At a last point
  (`n % 4 = 3`) the output block is written with the value the accumulator is left at.
-/
import proofs.«180707_j52802327937389_1_alg».proof.Proof.Pieces
import proofs.«180707_j52802327937389_1_alg».proof.Proof.Gen.KernelIdeal.Value

noncomputable section

namespace Cert.KernelIdeal.Carried

open Cert.KernelIdeal Cert.KernelIdeal.Gen Cert.KernelIdeal.Value Cert.KernelIdeal.Pieces
open Idealize.ShloMosaic Idealize.ShloMosaic.TcCoe Idealize.SL.Sem

variable {F : FTy → Type} [FloatOps F]
variable (m : (ℓ : Loc nD τ sig) → Buf (Elt F) ℓ)

/-- At the first point of a run the accumulator is left at the step over the zero block. -/
theorem step_first (c : Dev nD) (n : ℕ) (hb : n < cfg0.N) (h0 : n % 4 = 0) (acc : Vec F S1024x1024 .f32) :
    scAt0_0 m c n hb acc = k0_pay2 (iblk m c 0 ⟨n, hb⟩) (iblk m c 1 ⟨n, hb⟩) (k0_pay1 (F := F)) := by
  have h1 : ¬n % 4 = 3 := by omega
  unfold scAt0_0
  rw [dif_pos h0, dif_neg h1]
  exact acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 (⟨n, hb⟩ : Fin cfg0.N)) (iblk m c 1 (⟨n, hb⟩ : Fin cfg0.N))

/-- At every later point of a run the accumulator is left at the step over what it held. -/
theorem step_later (c : Dev nD) (n : ℕ) (hb : n < cfg0.N) (h0 : ¬n % 4 = 0) (acc : Vec F S1024x1024 .f32) :
    scAt0_0 m c n hb acc = k0_pay2 (iblk m c 0 ⟨n, hb⟩) (iblk m c 1 ⟨n, hb⟩) acc := by
  unfold scAt0_0
  rw [dif_neg h0]
  by_cases h1 : n % 4 = 3
  · rw [dif_pos h1]
    exact acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 (⟨n, hb⟩ : Fin cfg0.N)) (iblk m c 1 (⟨n, hb⟩ : Fin cfg0.N)) acc
  · rw [dif_neg h1]
    exact acc_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 (⟨n, hb⟩ : Fin cfg0.N)) (iblk m c 1 (⟨n, hb⟩ : Fin cfg0.N)) acc

/-- At a last point the output block holds what the accumulator is left at. -/
theorem out_eq_acc (c : Dev nD) (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  exact (out_last c (grid0.coords t) (ms0_0 t) (hs0_0 t) (ms0_1 t) (hs0_1 t) (ms0_2 t) (hs0_2 t) scM0_0 (Memref.isWhole_whole _) _ _ (iblk m c 0 t) (iblk m c 1 t) _).trans
    (acc_last c (grid0.coords t) (ms0_0 t) (hs0_0 t) (ms0_1 t) (hs0_1 t) (ms0_2 t) (hs0_2 t) scM0_0 (Memref.isWhole_whole _) _ _ (iblk m c 0 t) (iblk m c 1 t) _).symm

end Cert.KernelIdeal.Carried

end
-- ==== Proof.Blocks.lean ====
/-
  The windows' blocks as entries of the argument arrays.

  The grid is 8 × 4 × 4: point `t` has row tile `t / 16`, column tile `(t / 4) % 4` and contraction tile `t % 4`
  (the contraction tile runs fastest). At point `t` the window on `x` stages block (row tile, contraction tile), the
  window on the codes block (column tile, contraction tile), and the output window block (row tile, column tile); all
  blocks are 1024 × 1024. So the entry `(p, k)` of the staged block of `x` is `x` at
  `(1024·(t / 16) + p, 1024·(t % 4) + k)`, and the entry `(q, k)` of the staged block of codes is the code at
  `(1024·((t / 4) % 4) + q, 1024·(t % 4) + k)`.
-/
import proofs.«180707_j52802327937389_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The three index maps in closed form, decided once over the grid's 128 points. -/
theorem tile_of_point : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4)

/-- Entry `(p, k)` of the block of `x` staged at point `t` is `x` at row `1024·(t / 16) + p`, column
    `1024·(t % 4) + k`. -/
theorem x_block_apply (c : Dev nD) (t : Fin cfg0.N) (p k : Fin 1024) (i : S8192x4096.Idx)
    (h0 : (i 0).val = 1024 * (t.val / 16) + p.val) (h1 : (i 1).val = 1024 * (t.val % 4) + k.val) :
    (iblk m c 0 t : S1024x1024.Idx → Elt F .f32) (ix2 p k) = V m c main_arg0 i := by
  show V m c main_arg0 (((cfg0.win 0).blk t).view.emb (ix2 p k)) = V m c main_arg0 i
  refine congrArg (V m c main_arg0) (funext fun a => Fin.ext ?_)
  obtain ⟨e0, e1, -⟩ := tile_of_point t
  match a with
  | ⟨0, _⟩ => show win0_0.index t (0 : Fin 2) * 1024 + 1 * p.val = (i 0).val; omega
  | ⟨1, _⟩ => show win0_0.index t (1 : Fin 2) * 1024 + 1 * k.val = (i 1).val; omega

/-- Entry `(q, k)` of the block of codes staged at point `t` is the code at row `1024·((t / 4) % 4) + q`, column
    `1024·(t % 4) + k`. -/
theorem w_block_apply (c : Dev nD) (t : Fin cfg0.N) (q k : Fin 1024) (i : S4096x4096.Idx)
    (h0 : (i 0).val = 1024 * (t.val / 4 % 4) + q.val) (h1 : (i 1).val = 1024 * (t.val % 4) + k.val) :
    (iblk m c 1 t : S1024x1024.Idx → Elt F .i32) (ix2 q k) = V m c main_arg1 i := by
  show V m c main_arg1 (((cfg0.win 1).blk t).view.emb (ix2 q k)) = V m c main_arg1 i
  refine congrArg (V m c main_arg1) (funext fun a => Fin.ext ?_)
  obtain ⟨-, -, e2, e3, -⟩ := tile_of_point t
  match a with
  | ⟨0, _⟩ => show win0_1.index t (0 : Fin 2) * 1024 + 1 * q.val = (i 0).val; omega
  | ⟨1, _⟩ => show win0_1.index t (1 : Fin 2) * 1024 + 1 * k.val = (i 1).val; omega

end Cert.KernelIdeal.Blocks

end
-- ==== Proof.LibEReal.lean ====
/-
  General lemmas on the ideal float values (extended reals): the f32 word of 1.0 is `1`; division by a value that is
  not zero is multiplication by its reciprocal `1 / y` — at the infinities too, since off zero the ideal division is
  `x · y⁻¹` —; and a maximum with one is never zero. Together: a quotient by a count clipped below at one is the product
  with the reciprocal of the clipped count, for every extended real numerator and count. No finiteness is used.
-/
import Idealize.ShloMosaic.PureOps.Ideal

namespace Cert.LibEReal

open Idealize.ShloMosaic

/-- The f32 word `0x3F800000` is the extended real `1`. -/
theorem ofBits_one_f32 : Ideal.ofBits .f32 0x3F800000#32 = 1 := by
  simp [Ideal.ofBits, Ideal.ieee, -EReal.coe_mul]; norm_num

/-- Off zero the ideal division is the product with the reciprocal `1 / y`, whatever the numerator. -/
theorem div_eq_mul_div_one (s y : EReal) (hy : y ≠ 0) : Ideal.div s y = s * Ideal.div 1 y := by
  unfold Ideal.div
  rw [if_neg hy, if_neg hy, one_mul]

/-- A maximum with one is at least one, so never zero. -/
theorem max_one_ne_zero (c : EReal) : max 1 c ≠ 0 :=
  ne_of_gt (lt_of_lt_of_le zero_lt_one (le_max_left 1 c))

/-- A quotient by a count clipped below at one is the numerator times the reciprocal of the clipped count. -/
theorem div_max_one (s c : EReal) : Ideal.div s (max 1 c) = s * Ideal.div 1 (max 1 c) :=
  div_eq_mul_div_one s _ (max_one_ne_zero c)

end Cert.LibEReal
-- ==== Proof.Decode.lean ====
/-
  The weight decoding shared by both programs, and the function both compute.

  An integer code word `w` stands for the real weight `+1` when `w = 1` and `-1` otherwise. The kernel decodes by
  comparing the integer with `1` and selecting between the float words of `1.0` and `-1.0`; the reference converts the
  integer to a float `v`, compares `v` with `1.0`, and selects between `v` itself and the negation of `1.0`. On the
  extended reals these are one function of `w`: the conversion of an integer is injective, so `v = 1` exactly when
  `w = 1`, and then `v` is `1`.

  The result of both programs at row `t` and column `o` is the sum over `k` of `x t k` times the decoded weight of
  `w o k`: the product of `x` with the transposed matrix of decoded weights.
-/
import Idealize.ShloMosaic.PureOps.Ideal
import Idealize.ShloMosaic.Lib.ValueIdx
import proofs.«180707_j52802327937389_1_alg».proof.Proof.LibEReal

noncomputable section

open scoped BigOperators

namespace Cert.SignedCodes

open Idealize.ShloMosaic Idealize.ShloMosaic.ValueIdx

/-- The real weight a code word stands for: `+1` for the code `1`, `-1` for every other code. -/
def decode (w : BitVec 32) : EReal := if w = 1#32 then 1 else -1

/-- The f32 word of `1.0` is the extended real `1`. -/
theorem ofBits_one : Ideal.ofBits .f32 0x3F800000#32 = 1 := Cert.LibEReal.ofBits_one_f32

/-- The f32 word of `-1.0` is the extended real `-1`. -/
theorem ofBits_neg_one : Ideal.ofBits .f32 0xBF800000#32 = -1 := by
  simp [Ideal.ofBits, Ideal.ieee, -EReal.coe_mul]; norm_num

/-- The kernel's decoding: the integer compared with `1`, selecting between the words of `1.0` and `-1.0`. -/
theorem select_cmpi (w : BitVec 32) :
    Scalar.select (IntOp.cmpi .eq w 1#32) (Ideal.ofBits .f32 0x3F800000#32) (Ideal.ofBits .f32 0xBF800000#32)
      = decode w := by
  rw [ofBits_one, ofBits_neg_one]
  unfold decode Scalar.select IntOp.cmpi
  by_cases h : w = 1#32
  · simp [h]
  · have hb : (w == 1#32) = false := by simpa using h
    simp [h, hb]

/-- The integer `1` is the only code whose conversion is the real `1`. -/
theorem toInt_eq_one_iff (w : BitVec 32) : (((w.toInt : ℝ) : EReal) = 1) ↔ w = 1#32 := by
  constructor
  · intro h
    have h1 : ((w.toInt : ℝ) : EReal) = ((1 : ℝ) : EReal) := by rw [h]; rfl
    have h2 : (w.toInt : ℝ) = 1 := EReal.coe_injective h1
    have h3 : w.toInt = 1 := by exact_mod_cast h2
    exact BitVec.eq_of_toInt_eq (by rw [h3]; rfl)
  · intro h
    subst h
    have : (1#32 : BitVec 32).toInt = 1 := by decide
    rw [this]; simp

/-- The reference's decoding: the converted integer `v` compared with `1.0`, selecting between `v` and `-(1.0)`. -/
theorem select_cmpf (w : BitVec 32) :
    Scalar.select (Ideal.cmp .oeq ((w.toInt : ℝ) : EReal) (Ideal.ofBits .f32 0x3F800000#32))
        ((w.toInt : ℝ) : EReal) (-(Ideal.ofBits .f32 0x3F800000#32))
      = decode w := by
  rw [ofBits_one]
  unfold decode Scalar.select Ideal.cmp
  by_cases h : w = 1#32
  · have hv : ((w.toInt : ℝ) : EReal) = 1 := (toInt_eq_one_iff w).mpr h
    simp [h, hv]
  · have hv : ¬((w.toInt : ℝ) : EReal) = 1 := fun e => h ((toInt_eq_one_iff w).mp e)
    simp [h, hv]

/-- THE RESULT of both programs: at row `t` and column `o`, the sum over `k` of `x t k` times the decoded weight
    of `w o k`. -/
def signedDot (x : (⟨2, ![8192, 4096]⟩ : Shape).Idx → EReal) (w : (⟨2, ![4096, 4096]⟩ : Shape).Idx → BitVec 32) :
    (⟨2, ![8192, 4096]⟩ : Shape).Idx → EReal :=
  fun i => ∑ k : Fin 4096, x (ix2 (i 0) k) * decode (w (ix2 (i 1) k))

end Cert.SignedCodes

end
-- ==== Proof.Payload.lean ====
/-
  The body's arithmetic at an index, on the extended reals.

  The zero block is `0` everywhere. The accumulate step takes a 1024×1024 block `x` of floats, a 1024×1024 block `w`
  of codes and an accumulator block `acc`: it narrows `x` (the identity on the extended reals), decodes each code by
  comparing it with `1` and selecting `1.0` or `-1.0`, narrows that too, multiplies the two blocks contracting the
  second axis of both into a zero accumulator, and adds `acc`. At `(p, q)` that is
  `acc p q + ∑ k, x p k · decode (w q k)`.
-/
import proofs.«180707_j52802327937389_1_alg».proof.Proof.Gen.KernelIdeal.Skeleton
import proofs.«180707_j52802327937389_1_alg».proof.Proof.Decode
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Cert.SignedCodes
open Idealize.ShloMosaic Idealize.ShloMosaic.ValueIdx

/-- The block product's dimension numbers: both operands contracted on their second axis, rows kept. -/
abbrev dims := dot_S1024x1024_S1024x1024_S1024x1024_1_1_0_0_n_n

/-- The zero block is `0` at every index. -/
theorem zero_apply (j : S1024x1024.Idx) : k0_pay1 (F := Ideal) j = 0 := by
  unfold k0_pay1
  rw [shapeCast_self]
  exact Ideal.ofBits_zero_f32

/-- The left operand's row is the output's row. -/
theorem lhs_row (i : S1024x1024.Idx) (s : dims.contr.Idx) : (dims.lhsIdx i s 0).val = (i 0).val := by
  unfold DotDims.lhsIdx
  rw [dif_neg (show ¬(0 : Fin S1024x1024.rank) ∈ dims.lhsBatch by decide),
    dif_pos (show (0 : Fin S1024x1024.rank) ∈ dims.lhsNonContracting by decide)]
  rfl

/-- The right operand's row is the output's column. -/
theorem rhs_row (i : S1024x1024.Idx) (s : dims.contr.Idx) : (dims.rhsIdx i s 0).val = (i 1).val := by
  unfold DotDims.rhsIdx
  rw [dif_neg (show ¬(0 : Fin S1024x1024.rank) ∈ dims.rhsBatch by decide),
    dif_pos (show (0 : Fin S1024x1024.rank) ∈ dims.rhsNonContracting by decide)]
  rfl

/-- The block product into a zero accumulator at `(p, q)`: the sum over `k` of the left block at `(p, k)` times the
    right block at `(q, k)`. -/
theorem product_apply {φ₁ φ₂ : FTy} (l : FVec Ideal S1024x1024 φ₁) (r : FVec Ideal S1024x1024 φ₂) (p q : Fin 1024) :
    matmul (F := Ideal) dims none l r (constant (F := Ideal) S1024x1024 .f32 0x00000000#32) (ix2 p q)
      = ∑ k : Fin 1024, l (ix2 p k) * r (ix2 q k) := by
  refine (Ideal.matmul_constant_zero_apply dims none l r (ix2 p q)).trans ?_
  rw [← Equiv.sum_comp (contrEquiv1 dims 1024 rfl rfl).symm]
  refine Finset.sum_congr rfl fun k _ => ?_
  have hk := contrEquiv1_symm_val dims 1024 rfl rfl k
  have el : dims.lhsIdx (ix2 p q) ((contrEquiv1 dims 1024 rfl rfl).symm k) = ix2 p k := funext fun a => Fin.ext (by
    match a with
    | ⟨0, _⟩ => exact lhs_row _ _
    | ⟨1, _⟩ => exact (dims.lhsIdx_val_of_single rfl (ix2 p q) _).trans hk)
  have er : dims.rhsIdx (ix2 p q) ((contrEquiv1 dims 1024 rfl rfl).symm k) = ix2 q k := funext fun a => Fin.ext (by
    match a with
    | ⟨0, _⟩ => exact rhs_row _ _
    | ⟨1, _⟩ => exact (dims.rhsIdx_val_of_single rfl (ix2 p q) _).trans hk)
  exact congr (congrArg HMul.hMul (congrArg l el)) (congrArg r er)

/-- THE ACCUMULATE STEP at `(p, q)`: the accumulator there plus the sum over `k` of `x p k` times the decoded weight
    of the code `w q k`. -/
theorem step_apply (x0 : FVec Ideal S1024x1024 .f32) (x1 : IVec S1024x1024 32) (acc : FVec Ideal S1024x1024 .f32)
    (p q : Fin 1024) :
    k0_pay2 x0 x1 acc (ix2 p q) = acc (ix2 p q) + ∑ k : Fin 1024, x0 (ix2 p k) * decode (x1 (ix2 q k)) := by
  unfold k0_pay2
  rw [shapeCast_self, addf_apply]
  refine congrArg (acc (ix2 p q) + ·) ?_
  refine (product_apply _ _ p q).trans ?_
  refine Finset.sum_congr rfl fun k _ => ?_
  rw [truncf_apply, truncf_apply, select_apply]
  exact congrArg (x0 (ix2 p k) * ·) (select_cmpi (x1 (ix2 q k)))

end Cert.KernelIdeal.Payload

end
-- ==== Proof.LibTiles.lean ====
/-
  A sum over the first T·B naturals taken tile by tile.

  In any commutative additive monoid (the extended reals with their addition are one) the sum of `f` over
  `0 … T·B − 1` is the sum over the `T` tiles `s` of the sums over the `B` positions `r` inside a tile of
  `f (B·s + r)`: every number below `T·B` is `B·s + r` for exactly one tile `s` and position `r`. Only
  commutativity and associativity are used, so no term needs to be finite.
-/
import Mathlib.Algebra.BigOperators.Fin
import Mathlib.Logic.Equiv.Fin.Basic

open scoped BigOperators

namespace Cert.LibTiles

variable {M : Type*} [AddCommMonoid M]

/-- Position `r` of tile `s` is below `T·B`. -/
theorem tile_lt {T B : ℕ} (s : Fin T) (r : Fin B) : B * s.val + r.val < T * B := by
  have hs : s.val + 1 ≤ T := s.isLt
  have hr : r.val < B := r.isLt
  calc B * s.val + r.val < B * s.val + B := by omega
    _ = B * (s.val + 1) := (Nat.mul_succ B s.val).symm
    _ ≤ B * T := Nat.mul_le_mul_left B hs
    _ = T * B := Nat.mul_comm B T

/-- A sum over `Fin N` with `N = T·B` is the sum over the `T` tiles of the sums over each tile's `B` positions. -/
theorem sum_tiles {N : ℕ} (T B : ℕ) (h : N = T * B) (f : Fin N → M) :
    ∑ k, f k = ∑ s : Fin T, ∑ r : Fin B, f ⟨B * s.val + r.val, h ▸ tile_lt s r⟩ := by
  subst h
  rw [← Equiv.sum_comp finProdFinEquiv f, Fintype.sum_prod_type]
  refine Finset.sum_congr rfl fun s _ => Finset.sum_congr rfl fun r _ => congrArg f (Fin.ext ?_)
  show r.val + B * s.val = B * s.val + r.val
  exact Nat.add_comm _ _

end Cert.LibTiles
-- ==== Proof.Fold.lean ====
/-
  The accumulator after any point, and the output block at a last point, on the extended reals.

  One point's addend at `(p, q)` is the product of its two staged blocks there: the sum over `k` of the block of `x`
  at `(p, k)` times the decoded weight of the block of codes at `(q, k)`. The first point of a run of four leaves
  `0` plus its addend, every later point adds its own, so after the point at offset `j` of its run the accumulator
  holds `0` plus the addends of the run's first `j + 1` points. At the last point (`j = 3`) the four addends are the
  four contraction tiles `1024·s … 1024·s + 1023` of one row of `x` against one row of codes, and together they
  are the whole sum over `k < 4096`: addition on the extended reals is commutative and associative, so the
  tile-by-tile grouping does not matter and no entry needs to be finite.
-/
import proofs.«180707_j52802327937389_1_alg».proof.Proof.Carried
import proofs.«180707_j52802327937389_1_alg».proof.Proof.Blocks
import proofs.«180707_j52802327937389_1_alg».proof.Proof.Payload
import proofs.«180707_j52802327937389_1_alg».proof.Proof.Decode
import proofs.«180707_j52802327937389_1_alg».proof.Proof.LibTiles

noncomputable section

open scoped BigOperators

namespace Cert.KernelIdeal.Fold

open Cert.KernelIdeal Cert.KernelIdeal.Gen Cert.KernelIdeal.Value Cert.KernelIdeal.Carried Cert.KernelIdeal.Blocks
open Cert.KernelIdeal.Payload Cert.SignedCodes
open Idealize.ShloMosaic Idealize.ShloMosaic.TcCoe Idealize.ShloMosaic.ValueIdx Idealize.SL.Sem

variable (m : (ℓ : Loc nD τ sig) → Buf (Elt Ideal) ℓ)

/-- The accumulate step at any index of the block. -/
theorem step_idx (x0 : FVec Ideal S1024x1024 .f32) (x1 : IVec S1024x1024 32) (acc : FVec Ideal S1024x1024 .f32)
    (i : S1024x1024.Idx) :
    k0_pay2 x0 x1 acc i = acc i + ∑ k : Fin 1024, x0 (ix2 (i 0) k) * decode (x1 (ix2 (i 1) k)) := by
  obtain ⟨p, q, rfl⟩ : ∃ (p q : Fin 1024), i = ix2 p q := ⟨i 0, i 1, eq_ix2 i⟩
  exact step_apply x0 x1 acc p q

/-- The product of a block of `x` with a block of codes at an index: the sum over `k` of the first at `(i₀, k)`
    times the decoded weight of the second at `(i₁, k)`. -/
def tileProduct (x0 : FVec Ideal S1024x1024 .f32) (x1 : IVec S1024x1024 32) (i : S1024x1024.Idx) : EReal :=
  ∑ k : Fin 1024, x0 (ix2 (i 0) k) * decode (x1 (ix2 (i 1) k))

/-- One term of the whole product at `i`: `x` at `(i₀, k)` times the decoded weight of the code at `(i₁, k)`. -/
def term (x : S8192x4096.Idx → EReal) (w : S4096x4096.Idx → BitVec 32) (i : S8192x4096.Idx) (k : Fin 4096) : EReal :=
  x (ix2 (i 0) k) * decode (w (ix2 (i 1) k))

/-- POINT `n`'S ADDEND at an index of the block: the product of the two blocks staged at `n` (zero past the grid,
    where nothing is staged). -/
def addend (c : Dev nD) (n : ℕ) (i : S1024x1024.Idx) : EReal :=
  if h : n < cfg0.N then tileProduct (iblk m c 0 ⟨n, h⟩) (iblk m c 1 ⟨n, h⟩) i else 0

/-- The accumulate step at any index, with the block product named. -/
theorem step_tile (x0 : FVec Ideal S1024x1024 .f32) (x1 : IVec S1024x1024 32) (acc : FVec Ideal S1024x1024 .f32)
    (i : S1024x1024.Idx) : k0_pay2 x0 x1 acc i = acc i + tileProduct x0 x1 i :=
  step_idx x0 x1 acc i

/-- THE ACCUMULATOR AFTER POINT `t`: `0` plus the addends of the points of `t`'s run up to `t`. -/
theorem acc_after (c : Dev nD) (t : Fin cfg0.N) (i : S1024x1024.Idx) :
    (outsAt0 m c t.val t.isLt).2 i
      = 0 + ∑ s ∈ Finset.range (t.val % 4 + 1), addend m c (4 * (t.val / 4) + s) i := by
  rw [soutsAt0_0_eq m c t]
  refine Pipeline.accAt_add_apply (fun n h => scAt0_0 m c n h (VS0_0.read (Elt Ideal) VS0_0.junk)) (scAt0_0 m c)
    (fun _ => 0) (addend m c) (4 * (t.val / 4)) 3 ?_ ?_ (t.val % 4) (by omega) _ i
  · intro h j
    show scAt0_0 m c (4 * (t.val / 4)) h (VS0_0.read (Elt Ideal) VS0_0.junk) j = 0 + addend m c (4 * (t.val / 4)) j
    refine (congrFun (step_first m c (4 * (t.val / 4)) h (by omega) _) j).trans ?_
    refine (step_tile (iblk m c 0 ⟨4 * (t.val / 4), h⟩) (iblk m c 1 ⟨4 * (t.val / 4), h⟩) (k0_pay1 (F := Ideal)) j).trans ?_
    rw [zero_apply]
    unfold addend
    rw [dif_pos h]
  · intro n h acc j hlt hle
    refine (congrFun (step_later m c n h (by omega) acc) j).trans ?_
    refine (step_tile (iblk m c 0 ⟨n, h⟩) (iblk m c 1 ⟨n, h⟩) acc j).trans ?_
    unfold addend
    rw [dif_pos h]

/-- A point's addend at block index `y` is one contraction tile of the whole product at the array index `i` with
    `i₀ = 1024·(n / 16) + y₀` and `i₁ = 1024·((n / 4) % 4) + y₁`: the terms `1024·s … 1024·s + 1023` for
    `s = n % 4`. -/
theorem addend_eq (c : Dev nD) (n : ℕ) (hb : n < cfg0.N) (y : S1024x1024.Idx) (i : S8192x4096.Idx) (s : Fin 4)
    (h0 : (i 0).val = 1024 * (n / 16) + (y 0).val) (h1 : (i 1).val = 1024 * (n / 4 % 4) + (y 1).val)
    (hs : n % 4 = s.val) :
    addend m c n y = ∑ r : Fin 1024, term (V m c main_arg0) (V m c main_arg1) i
      ⟨1024 * s.val + r.val, LibTiles.tile_lt (T := 4) s r⟩ := by
  unfold addend
  rw [dif_pos hb]
  unfold tileProduct
  refine Finset.sum_congr rfl fun r _ => ?_
  unfold term
  refine congr (congrArg HMul.hMul ?_) (congrArg decode ?_)
  · exact x_block_apply m c ⟨n, hb⟩ (y 0) r _
      (by show (i 0).val = 1024 * (n / 16) + (y 0).val; exact h0)
      (by show 1024 * s.val + r.val = 1024 * (n % 4) + r.val; rw [hs])
  · exact w_block_apply m c ⟨n, hb⟩ (y 1) r _
      (by show (i 1).val = 1024 * (n / 4 % 4) + (y 1).val; exact h1)
      (by show 1024 * s.val + r.val = 1024 * (n % 4) + r.val; rw [hs])

/-- AT A LAST POINT the accumulator at block index `y` is the whole product at the array index the output block puts
    `y` at: row `1024·(t / 16) + y₀`, column `1024·((t / 4) % 4) + y₁`. -/
theorem acc_last_point (c : Dev nD) (t : Fin cfg0.N) (h3 : t.val % 4 = 3) (y : S1024x1024.Idx) (i : S8192x4096.Idx)
    (hi0 : (i 0).val = 1024 * (t.val / 16) + (y 0).val) (hi1 : (i 1).val = 1024 * (t.val / 4 % 4) + (y 1).val) :
    (outsAt0 m c t.val t.isLt).2 y = signedDot (V m c main_arg0) (V m c main_arg1) i := by
  have hN : cfg0.N = 128 := N_0
  have ht : t.val < 128 := lt_of_lt_of_eq t.isLt hN
  refine (acc_after m c t y).trans ?_
  rw [h3, zero_add]
  show ∑ s ∈ Finset.range 4, addend m c (4 * (t.val / 4) + s) y = _
  rw [Finset.sum_range]
  refine Eq.trans ?_ (LibTiles.sum_tiles (N := 4096) 4 1024 rfl (term (V m c main_arg0) (V m c main_arg1) i)).symm
  refine Finset.sum_congr rfl fun s _ => ?_
  have hs : s.val < 4 := s.isLt
  exact addend_eq m c (4 * (t.val / 4) + s.val) (by omega) y i s (by omega) (by omega) (by omega)

end Cert.KernelIdeal.Fold

end
-- ==== Proof.KernelValue.lean ====
/-
  The kernel's result array, on the extended reals.

  The output window writes its block back only at the last point of each run of four, and what it writes there is
  the accumulator after that point: the whole product, read through the block. The block of point `t` is rows
  `1024·(t / 16) …` and columns `1024·((t / 4) % 4) …` of the result array, so the 32 last points' blocks tile the
  8192 × 4096 array: entry `(r, o)` lies in the block of the last point of row tile `r / 1024` and column tile
  `o / 1024`. Hence after the run the result array holds `signedDot x w` everywhere.
-/
import proofs.«180707_j52802327937389_1_alg».proof.Proof.Fold

noncomputable section

namespace Cert.KernelIdeal.Result

open Cert.KernelIdeal Cert.KernelIdeal.Gen Cert.KernelIdeal.Value Cert.KernelIdeal.Carried Cert.KernelIdeal.Blocks
open Cert.KernelIdeal.Fold Cert.SignedCodes
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- WHAT A LAST POINT WRITES BACK is its block of the whole product of the argument arrays. -/
theorem flushed_eq (c : Dev nD) (t : Fin cfg0.N) (hf : (cfg0.win 2).flush t = true) :
    (dats m 0 c).flushed 2 t
      = ((cfg0.win 2).blk t).view.read (Elt Ideal) (signedDot (V m c main_arg0) (V m c main_arg1)) := by
  have h3 : t.val % 4 = 3 := (flush0_2 t).mp hf
  rw [flushed2 m c t, out_eq_acc m c t h3]
  funext y
  obtain ⟨-, -, -, -, e4, e5⟩ := tile_of_point t
  show (outsAt0 m c t.val t.isLt).2 y
    = signedDot (V m c main_arg0) (V m c main_arg1) (((cfg0.win 2).blk t).view.emb y)
  refine acc_last_point m c t h3 y _ ?_ ?_
  · show win0_2.index t (0 : Fin 2) * 1024 + 1 * (y 0).val = 1024 * (t.val / 16) + (y 0).val
    omega
  · show win0_2.index t (1 : Fin 2) * 1024 + 1 * (y 1).val = 1024 * (t.val / 4 % 4) + (y 1).val
    omega

/-- An entry of the result array is in point `t`'s block iff each coordinate is in the block's range on its axis. -/
theorem mem_blk (t : Fin cfg0.N) (i : S8192x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- THE COVER: entry `(r, o)` is in the block written back at the last point of row tile `r / 1024` and column tile
    `o / 1024`. -/
theorem covered (i : S8192x4096.Idx) :
    ∃ t : Fin cfg0.N, (cfg0.win 2).flush t = true ∧ i ∈ ((cfg0.win 2).blk t).view.set := by
  have hN : cfg0.N = 128 := N_0
  have hi0 : (i 0).val < 8192 := (i 0).isLt
  have hi1 : (i 1).val < 4096 := (i 1).isLt
  have hlt : 16 * ((i 0).val / 1024) + 4 * ((i 1).val / 1024) + 3 < cfg0.N := by omega
  refine ⟨⟨16 * ((i 0).val / 1024) + 4 * ((i 1).val / 1024) + 3, hlt⟩, (flush0_2 _).mpr ?_, ?_⟩
  · show (16 * ((i 0).val / 1024) + 4 * ((i 1).val / 1024) + 3) % 4 = 3
    omega
  · rw [mem_blk]
    obtain ⟨-, -, -, -, e4, e5⟩ := tile_of_point ⟨16 * ((i 0).val / 1024) + 4 * ((i 1).val / 1024) + 3, hlt⟩
    have e4' : win0_2.index ⟨16 * ((i 0).val / 1024) + 4 * ((i 1).val / 1024) + 3, hlt⟩ (0 : Fin 2)
        = (16 * ((i 0).val / 1024) + 4 * ((i 1).val / 1024) + 3) / 16 := e4
    have e5' : win0_2.index ⟨16 * ((i 0).val / 1024) + 4 * ((i 1).val / 1024) + 3, hlt⟩ (1 : Fin 2)
        = (16 * ((i 0).val / 1024) + 4 * ((i 1).val / 1024) + 3) / 4 % 4 := e5
    intro a
    match a with
    | ⟨0, _⟩ =>
      show win0_2.index _ (0 : Fin 2) * 1024 ≤ (i 0).val ∧ (i 0).val < win0_2.index _ (0 : Fin 2) * 1024 + 1024
      rw [e4']; omega
    | ⟨1, _⟩ =>
      show win0_2.index _ (1 : Fin 2) * 1024 ≤ (i 1).val ∧ (i 1).val < win0_2.index _ (1 : Fin 2) * 1024 + 1024
      rw [e5']; omega

/-- THE RESULT ARRAY after the run is the whole product of the argument arrays. -/
theorem final (c : Dev nD) :
    (dats m 0 c).arrAt 2 cfg0.N
      = signedDot (m ((c : Thread nD τ).loc main_arg0)) (m ((c : Thread nD τ).loc main_arg1)) :=
  (dats m 0 c).arrAt_eq_of_cover 2 (signedDot (V m c main_arg0) (V m c main_arg1)) (flushed_eq m c) covered

/-- THE KERNEL'S RUN: every weakly fair execution terminates with the result array at the whole product of the
    argument arrays, and the arguments unchanged. -/
theorem run : θ_run defs (onTc (τ := τ) (main (F := Ideal))) ⟨m, fun _ => 0, ρ⟩ fun r => ∀ c : Dev nD,
      r.2.mem ((c : Thread nD τ).loc main_v0)
        = signedDot (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Result

end
-- ==== Proof.RefRun.lean ====
/-
  The reference program's run, read back.

  The reference is nine host operations in a straight line: the integer codes converted to floats, the float `1.0`
  spread over the weight matrix's shape, their comparison, `1.0` spread again and negated, the selection between the
  converted code and `-1.0`, and the product of `x` with the decoded weights contracted over the second axis of both.
  Every weakly fair execution ends with the result buffer holding those operations' composition applied to the two
  arguments as launched, and with the arguments unchanged.
-/
import proofs.«180707_j52802327937389_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The float `1.0` at every position of the weight matrix's shape. -/
abbrev ones : (⟨S4096x4096, .f32⟩ : BufTy).Contents (Elt F) :=
  broadcastInDim S4096x4096 ![] bcast_S_S4096x4096 (constant (F := F) S_ .f32 0x3F800000#32)

/-- The reference's decoded weights: the converted code where it equals `1.0`, the negated `1.0` elsewhere. -/
def decoded (w : (⟨S4096x4096, .i32⟩ : BufTy).Contents (Elt F)) : (⟨S4096x4096, .f32⟩ : BufTy).Contents (Elt F) :=
  select (cmpf .oeq (sitofp (F := F) .f32 w) (ones (F := F))) (sitofp (F := F) .f32 w) (Host.negf (ones (F := F)))

/-- The nine operations, in order (the outlined selection stands in its call's place). -/
abbrev ops : List (HloOp τ sig (Elt F)) :=
  [ unary main_arg1 main_v0 (sitofp .f32 : (⟨S4096x4096, .i32⟩ : BufTy).Contents (Elt F) → (⟨S4096x4096, .f32⟩ : BufTy).Contents (Elt F)),
    nullary main_cst (constant S_ .f32 0x3F800000#32),
    unary main_cst main_v1 (broadcastInDim S4096x4096 ![] bcast_S_S4096x4096 : (⟨S_, .f32⟩ : BufTy).Contents (Elt F) → (⟨S4096x4096, .f32⟩ : BufTy).Contents (Elt F)),
    binary main_v0 main_v1 main_v2 (cmpf .oeq : (⟨S4096x4096, .f32⟩ : BufTy).Contents (Elt F) → (⟨S4096x4096, .f32⟩ : BufTy).Contents (Elt F) → (⟨S4096x4096, .i1⟩ : BufTy).Contents (Elt F)),
    nullary main_cst_0 (constant S_ .f32 0x3F800000#32),
    unary main_cst_0 main_v3 (broadcastInDim S4096x4096 ![] bcast_S_S4096x4096 : (⟨S_, .f32⟩ : BufTy).Contents (Elt F) → (⟨S4096x4096, .f32⟩ : BufTy).Contents (Elt F)),
    unary main_v3 main_v4 (Host.negf : (⟨S4096x4096, .f32⟩ : BufTy).Contents (Elt F) → (⟨S4096x4096, .f32⟩ : BufTy).Contents (Elt F)),
    TRef.ternary (TRef.of (T := ⟨S4096x4096, .i1⟩) main_v2) (TRef.of (T := ⟨S4096x4096, .f32⟩) main_v0) (TRef.of (T := ⟨S4096x4096, .f32⟩) main_v4) (TRef.of (T := ⟨S4096x4096, .f32⟩) main_v5) select,
    binary main_arg0 main_v5 main_v6 ((fun l r => Host.dotGeneral dot_S8192x4096_S4096x4096_S8192x4096_1_1_0_0_n_n none l r) : (⟨S8192x4096, .f32⟩ : BufTy).Contents (Elt F) → (⟨S4096x4096, .f32⟩ : BufTy).Contents (Elt F) → (⟨S8192x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., unary_bufs_sub .., ternary_bufs_sub .., binary_bufs_sub ..⟩

set_option maxHeartbeats 900000 in
/-- On every device, for any float values, from any memory with zero counters: every weakly fair execution of the
    reference terminates with the result at the product of `x` with its decoded weights, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
        = Host.dotGeneral dot_S8192x4096_S4096x4096_S8192x4096_1_1_0_0_n_n none (m ((c.tc : Thread nD τ).loc main_arg0))
            (decoded (F := F) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v6).trans (by after_results <;> rfl),
      (h c main_arg0).trans (by after_results <;> rfl),
      (h c main_arg1).trans (by after_results <;> rfl)⟩)
    (run_seq scopedRefs_eq scopedSems_eq defs main (fun _ => ops) main_eq (fun _ => ops_sub) m ρ)

end Cert.ReferenceIdeal.HostRun

end
-- ==== Proof.RefValue.lean ====
/-
  The reference's result, index by index, on the extended reals.

  The decoded weight matrix at `(o, k)` is the decoded weight of the code `w o k`: the float comparison of the converted
  code with `1.0` holds exactly for the code `1`, where the converted code is `1`; elsewhere the selection takes the
  negated `1.0`. The product contracted over the second axis of both operands is, at `(t, o)`, the sum over `k` of
  `x t k` times the decoded matrix at `(o, k)`. So the reference's result is `signedDot x w`.
-/
import proofs.«180707_j52802327937389_1_alg».proof.Proof.RefRun
import proofs.«180707_j52802327937389_1_alg».proof.Proof.Decode
import Idealize.ShloMosaic.Lib.Pipeline.Value
import Idealize.ShloMosaic.Lib.ValueIdx
import Idealize.ShloMosaic.PureOps.Ideal.Laws

noncomputable section

open scoped BigOperators

namespace Cert.ReferenceIdeal.HostValue

open Cert.ReferenceIdeal Cert.ReferenceIdeal.Gen Cert.ReferenceIdeal.HostRun Cert.SignedCodes
open Idealize.ShloMosaic Idealize.ShloMosaic.ValueIdx

/-- The spread `1.0` reads the word of `1.0` everywhere. -/
theorem ones_apply (j : S4096x4096.Idx) : ones (F := Ideal) j = Ideal.ofBits .f32 0x3F800000#32 :=
  (broadcastInDim_apply _ bcast_S_S4096x4096 (constant (F := Ideal) S_ .f32 0x3F800000#32) j (fun a => a.elim0)
    (fun a => a.elim0)).trans rfl

/-- The reference's decoded weight matrix at an index is the decoded weight of the code there. -/
theorem decoded_apply (w : S4096x4096.Idx → BitVec 32) (j : S4096x4096.Idx) :
    decoded (F := Ideal) w j = decode (w j) := by
  show Scalar.select (Ideal.cmp .oeq (((w j).toInt : ℝ) : EReal) (ones (F := Ideal) j)) (((w j).toInt : ℝ) : EReal)
    (-(ones (F := Ideal) j)) = _
  rw [ones_apply]
  exact select_cmpf (w j)

local notation "D" => dot_S8192x4096_S4096x4096_S8192x4096_1_1_0_0_n_n

/-- The left operand's row is the output's row. -/
theorem lhs_row (i : S8192x4096.Idx) (q : (D).contr.Idx) : ((D).lhsIdx i q 0).val = (i 0).val := by
  unfold DotDims.lhsIdx
  rw [dif_neg (show ¬(0 : Fin S8192x4096.rank) ∈ (D).lhsBatch by decide),
    dif_pos (show (0 : Fin S8192x4096.rank) ∈ (D).lhsNonContracting by decide)]
  rfl

/-- The right operand's row is the output's column. -/
theorem rhs_row (i : S8192x4096.Idx) (q : (D).contr.Idx) : ((D).rhsIdx i q 0).val = (i 1).val := by
  unfold DotDims.rhsIdx
  rw [dif_neg (show ¬(0 : Fin S4096x4096.rank) ∈ (D).rhsBatch by decide),
    dif_pos (show (0 : Fin S4096x4096.rank) ∈ (D).rhsNonContracting by decide)]
  rfl

/-- The product contracted over the second axis of both operands, at `(t, o)`: the sum over `k` of the left operand at
    `(t, k)` times the right at `(o, k)`. -/
theorem dot_apply (x : S8192x4096.Idx → EReal) (y : S4096x4096.Idx → EReal) (i : S8192x4096.Idx) :
    Host.dotGeneral (F := Ideal) (φ₁ := .f32) (φ₂ := .f32) D none x y i = ∑ k : Fin 4096, x (ix2 (i 0) k) * y (ix2 (i 1) k) := by
  simp only [Host.dotGeneral]
  rw [Ideal.dotGeneral_apply, ← Equiv.sum_comp (contrEquiv1 D 4096 rfl rfl).symm]
  refine Finset.sum_congr rfl fun k _ => ?_
  have hk := contrEquiv1_symm_val D 4096 rfl rfl k
  have el : (D).lhsIdx i ((contrEquiv1 D 4096 rfl rfl).symm k) = ix2 (i 0) k := funext fun a => Fin.ext (by
    match a with
    | ⟨0, _⟩ => exact lhs_row _ _
    | ⟨1, _⟩ => exact ((D).lhsIdx_val_of_single rfl i _).trans hk)
  have er : (D).rhsIdx i ((contrEquiv1 D 4096 rfl rfl).symm k) = ix2 (i 1) k := funext fun a => Fin.ext (by
    match a with
    | ⟨0, _⟩ => exact rhs_row _ _
    | ⟨1, _⟩ => exact ((D).rhsIdx_val_of_single rfl i _).trans hk)
  exact congr (congrArg HMul.hMul (congrArg x el)) (congrArg y er)

/-- THE REFERENCE'S RESULT is the product of `x` with the transposed matrix of decoded weights. -/
theorem result_eq (x : S8192x4096.Idx → EReal) (w : S4096x4096.Idx → BitVec 32) :
    Host.dotGeneral (F := Ideal) (φ₁ := .f32) (φ₂ := .f32) D none x (decoded (F := Ideal) w) = signedDot x w := by
  funext i
  rw [dot_apply]
  unfold signedDot
  exact Finset.sum_congr rfl fun k _ => by rw [decoded_apply]

end Cert.ReferenceIdeal.HostValue

end
-- ==== Proof.lean ====
/-
  A linear layer with binary weights: `out[t, o] = ∑ₖ x[t, k] · d(w[o, k])` over `x : f32[8192, 4096]` and integer
  codes `w : i32[4096, 4096]`, where the code `1` stands for the weight `+1` and every other code for `-1`.

  The kernel tiles the product 8 × 4 × 4 into 1024 × 1024 blocks. For each output block it zeroes an accumulator at
  the first contraction tile, adds at every contraction tile the product of the staged block of `x` with the decoded
  block of codes (the codes compared with `1` as integers, selecting the floats `1.0` and `-1.0`), and writes the
  accumulator to the output block at the last tile. The reference converts the codes to floats, compares them with
  `1.0`, keeps the converted code where they agree and takes the negated `1.0` elsewhere, and contracts `x` with that
  matrix over the second axis of both.

  On the extended reals the two decodings are one function of the code (an integer converts to `1` exactly when it is
  `1`), the narrowing of the operands before the kernel's product is the identity, and the kernel's four partial sums
  added onto a zero are the one sum over all 4096 terms regrouped — addition there is commutative and associative, so
  this holds at infinite entries too and the inputs' finiteness is never used. Hence both result arrays are
  `signedDot x w` (Proof/Decode.lean): the kernel's by Proof/KernelValue.lean, the reference's by Proof/RefValue.lean
  over its run (Proof/RefRun.lean). The three frames are the programs' runs with the result forgotten; the
  idealization rewrote nothing, so it is preserved trivially.
-/
import proofs.«180707_j52802327937389_1_alg».proof.Defs
import proofs.«180707_j52802327937389_1_alg».proof.Proof.Gen.Kernel
import proofs.«180707_j52802327937389_1_alg».proof.Proof.Gen.Kernel.Skeleton
import proofs.«180707_j52802327937389_1_alg».proof.Proof.Gen.Kernel.Launch
import proofs.«180707_j52802327937389_1_alg».proof.Proof.Gen.Kernel.Points
import proofs.«180707_j52802327937389_1_alg».proof.Proof.Gen.Kernel.Frame
import proofs.«180707_j52802327937389_1_alg».proof.Proof.Gen.KernelIdeal
import proofs.«180707_j52802327937389_1_alg».proof.Proof.Gen.KernelIdeal.Skeleton
import proofs.«180707_j52802327937389_1_alg».proof.Proof.Gen.KernelIdeal.Launch
import proofs.«180707_j52802327937389_1_alg».proof.Proof.Gen.KernelIdeal.Points
import proofs.«180707_j52802327937389_1_alg».proof.Proof.Gen.KernelIdeal.Frame
import proofs.«180707_j52802327937389_1_alg».proof.Proof.Gen.ReferenceIdeal
import proofs.«180707_j52802327937389_1_alg».proof.Proof.Gen.KernelIdeal.Value
import proofs.«180707_j52802327937389_1_alg».proof.Proof.Gen.Pre_finite_inputs
import proofs.«180707_j52802327937389_1_alg».proof.Proof.KernelValue
import proofs.«180707_j52802327937389_1_alg».proof.Proof.RefValue
import Idealize.ShloMosaic.Adequacy
import Idealize.ShloMosaic.Init

noncomputable section

namespace Cert.Proof

open Idealize.ShloMosaic Idealize.SL.Sem Cert.SignedCodes

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.HostRun.run (F := Ideal) m ρ)

/-- The idealization rewrote no operation. -/
theorem preserves : Cert.preserves_Kernel_KernelIdeal := trivial

/-- From memories that agree on `x` and on the codes, the kernel's result array ends at the product of `x` with the
    transposed matrix of decoded weights, and so does the reference's. -/
theorem algebraic : Cert.algebraic_KernelIdeal_ReferenceIdeal := by
  intro m ρ m' ρ' _ hagree
  refine ⟨fun c => signedDot (m (((c.tc : Thread Cert.KernelIdeal.nD Cert.KernelIdeal.τ)).loc Cert.KernelIdeal.main_arg0))
      (m (((c.tc : Thread Cert.KernelIdeal.nD Cert.KernelIdeal.τ)).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.HostRun.run (F := Ideal) m' ρ')
  rw [Cert.ReferenceIdeal.HostValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
